-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000 : Shape := ⟨1, ![1600000]⟩
abbrev S32x32 : Shape := ⟨2, ![32, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x32 .f32) (main_arg1 : IVec S1600000 32) (main_arg2 : IVec S1600000 32) (main_arg3 : FVec F S32x32 .f32) (main_arg4 : FVec F S32 .f32) (main_arg5 : FVec F S32x16 .f32) (main_arg6 : FVec F S16 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x32 .f32 := Host.absf main_arg3
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg5
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg6 main_v13 main_v16
-- ==== Kernel.lean ====
abbrev S100000x32 : Shape := ⟨2, ![100000, 32]⟩
abbrev S1600000 : Shape := ⟨1, ![1600000]⟩
abbrev S32x32 : Shape := ⟨2, ![32, 32]⟩
abbrev S32 : Shape := ⟨1, ![32]⟩
abbrev S32x16 : Shape := ⟨2, ![32, 16]⟩
abbrev S16 : Shape := ⟨1, ![16]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x32 : Shape := ⟨2, ![1600000, 32]⟩
abbrev S1x32 : Shape := ⟨2, ![1, 32]⟩
abbrev S5000x32 : Shape := ⟨2, ![5000, 32]⟩
abbrev S5000x1 : Shape := ⟨2, ![5000, 1]⟩
abbrev S1x16 : Shape := ⟨2, ![1, 16]⟩
abbrev S100000x16 : Shape := ⟨2, ![100000, 16]⟩
abbrev S5000x16 : Shape := ⟨2, ![5000, 16]⟩

abbrev nBuf : Space → Nat
  | .hbm => 65
  | .vmem => 18
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S32x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x32, .f32⟩
  | .hbm, ⟨31, _⟩ => ⟨S100000x32, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x32, .f32⟩
  | .hbm, ⟨41, _⟩ => ⟨S_, .f32⟩
  | .hbm, ⟨42, _⟩ => ⟨S100000x32, .f32⟩
  | .hbm, ⟨43, _⟩ => ⟨S1600000x1, .i32⟩
  | .hbm, ⟨44, _⟩ => ⟨S100000x32, .f32⟩
  | .hbm, ⟨45, _⟩ => ⟨S1x32, .f32⟩
  | .hbm, ⟨46, _⟩ => ⟨S100000x1, .f32⟩
  | .hbm, ⟨47, _⟩ => ⟨S100000x1, .f32⟩
  | .hbm, ⟨48, _⟩ => ⟨S100000x32, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x32, .f32⟩
  | .hbm, ⟨58, _⟩ => ⟨S_, .f32⟩
  | .hbm, ⟨59, _⟩ => ⟨S100000x32, .f32⟩
  | .hbm, ⟨60, _⟩ => ⟨S1600000x1, .i32⟩
  | .hbm, ⟨61, _⟩ => ⟨S100000x32, .f32⟩
  | .hbm, ⟨62, _⟩ => ⟨S1x16, .f32⟩
  | .hbm, ⟨63, _⟩ => ⟨S100000x1, .f32⟩
  | .hbm, ⟨64, _⟩ => ⟨S100000x16, .f32⟩
  | .local _ .vmem, ⟨0, _⟩ => ⟨S5000x32, .f32⟩
  | .local _ .vmem, ⟨1, _⟩ => ⟨S5000x32, .f32⟩
  | .local _ .vmem, ⟨2, _⟩ => ⟨S32x32, .f32⟩
  | .local _ .vmem, ⟨3, _⟩ => ⟨S1x32, .f32⟩
  | .local _ .vmem, ⟨4, _⟩ => ⟨S5000x1, .f32⟩
  | .local _ .vmem, ⟨5, _⟩ => ⟨S5000x1, .f32⟩
  | .local _ .vmem, ⟨6, _⟩ => ⟨S5000x1, .f32⟩
  | .local _ .vmem, ⟨7, _⟩ => ⟨S5000x1, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S32x16, .f32⟩
  | .local _ .vmem, ⟨13, _⟩ => ⟨S1x16, .f32⟩
  | .local _ .vmem, ⟨14, _⟩ => ⟨S5000x1, .f32⟩
  | .local _ .vmem, ⟨15, _⟩ => ⟨S5000x1, .f32⟩
  | .local _ .vmem, ⟨16, _⟩ => ⟨S5000x16, .f32⟩
  | .local _ .vmem, ⟨17, _⟩ => ⟨S5000x16, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_8 : Ref sig .tc := ⟨.hbm, 49, rfl⟩
abbrev main_v32 : Ref sig .tc := ⟨.hbm, 50, rfl⟩
abbrev main_v33 : Ref sig .tc := ⟨.hbm, 51, rfl⟩
abbrev main_c_9 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_10 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S_S100000x32 : S_.BroadcastsInDim S100000x32 (![] : Fin 0 → Fin S100000x32.rank)
  shapeCasts_S32_S1x32 : S32.ShapeCasts S1x32
  shapeCasts_S100000_S100000x1 : S100000.ShapeCasts S100000x1
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  shapeCasts_S16_S1x16 : S16.ShapeCasts S1x16
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x32_S5000x32_1_0_0_1_n_n_wf : DotDims.WF S5000x32 S32x32 S5000x32 [1] [0] [0] [1] [] []
  dot_S5000x32_S32x16_S5000x16_1_0_0_1_n_n_wf : DotDims.WF S5000x32 S32x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S100000x1.size a
  hwx0_3 : ∀ i : grid0.Coords, EltTy.bits .f32 = 32 ∨ (Rect.block (s := S100000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S100000x1.size a
  hwx0_4 : ∀ i : grid0.Coords, EltTy.bits .f32 = 32 ∨ (Rect.block (s := S100000x1) S5000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x32.size a ≤ S100000x32.size a
  hwx0_5 : ∀ i : grid0.Coords, EltTy.bits .f32 = 32 ∨ (Rect.block (s := S100000x32) S5000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x16.size a ≤ S32x16.size a
  hwx1_1 : ∀ i : grid1.Coords, EltTy.bits .f32 = 32 ∨ (Rect.block (s := S32x16) S32x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x16.size a ≤ S100000x16.size a
  hwx1_4 : ∀ i : grid1.Coords, EltTy.bits .f32 = 32 ∨ (Rect.block (s := S100000x16) S5000x16.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf

abbrev win0_0 : Pipeline.Window sig grid0 :=
  Pipeline.Window.ofSpec (Memref.whole main_v27) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30) S5000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v31) S5000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S32x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v44) S5000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x32 : Shape := ⟨2, ![100000, 32]⟩
abbrev S1600000 : Shape := ⟨1, ![1600000]⟩
abbrev S32x32 : Shape := ⟨2, ![32, 32]⟩
abbrev S32 : Shape := ⟨1, ![32]⟩
abbrev S32x16 : Shape := ⟨2, ![32, 16]⟩
abbrev S16 : Shape := ⟨1, ![16]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x32 : Shape := ⟨2, ![1600000, 32]⟩
abbrev S1x32 : Shape := ⟨2, ![1, 32]⟩
abbrev S100000x16 : Shape := ⟨2, ![100000, 16]⟩
abbrev S1x16 : Shape := ⟨2, ![1, 16]⟩

abbrev nBuf : Space → Nat
  | .hbm => 81
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S32x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x32, .f32⟩
  | .hbm, ⟨31, _⟩ => ⟨S100000x32, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x32, .f32⟩
  | .hbm, ⟨41, _⟩ => ⟨S_, .f32⟩
  | .hbm, ⟨42, _⟩ => ⟨S100000x32, .f32⟩
  | .hbm, ⟨43, _⟩ => ⟨S1600000x1, .i32⟩
  | .hbm, ⟨44, _⟩ => ⟨S100000x32, .f32⟩
  | .hbm, ⟨45, _⟩ => ⟨S100000x1, .f32⟩
  | .hbm, ⟨46, _⟩ => ⟨S100000x32, .f32⟩
  | .hbm, ⟨47, _⟩ => ⟨S100000x32, .f32⟩
  | .hbm, ⟨48, _⟩ => ⟨S100000x32, .f32⟩
  | .hbm, ⟨49, _⟩ => ⟨S1x32, .f32⟩
  | .hbm, ⟨50, _⟩ => ⟨S100000x32, .f32⟩
  | .hbm, ⟨51, _⟩ => ⟨S100000x32, .f32⟩
  | .hbm, ⟨52, _⟩ => ⟨S_, .f32⟩
  | .hbm, ⟨53, _⟩ => ⟨S100000x32, .f32⟩
  | .hbm, ⟨54, _⟩ => ⟨S100000x32, .f32⟩
  | .hbm, ⟨55, _⟩ => ⟨S100000x1, .f32⟩
  | .hbm, ⟨56, _⟩ => ⟨S100000x32, .f32⟩
  | .hbm, ⟨57, _⟩ => ⟨S100000x32, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x32, .f32⟩
  | .hbm, ⟨67, _⟩ => ⟨S_, .f32⟩
  | .hbm, ⟨68, _⟩ => ⟨S100000x32, .f32⟩
  | .hbm, ⟨69, _⟩ => ⟨S1600000x1, .i32⟩
  | .hbm, ⟨70, _⟩ => ⟨S100000x32, .f32⟩
  | .hbm, ⟨71, _⟩ => ⟨S100000x1, .f32⟩
  | .hbm, ⟨72, _⟩ => ⟨S100000x32, .f32⟩
  | .hbm, ⟨73, _⟩ => ⟨S100000x32, .f32⟩
  | .hbm, ⟨74, _⟩ => ⟨S100000x16, .f32⟩
  | .hbm, ⟨75, _⟩ => ⟨S1x16, .f32⟩
  | .hbm, ⟨76, _⟩ => ⟨S100000x16, .f32⟩
  | .hbm, ⟨77, _⟩ => ⟨S100000x16, .f32⟩
  | .hbm, ⟨78, _⟩ => ⟨S_, .f32⟩
  | .hbm, ⟨79, _⟩ => ⟨S100000x16, .f32⟩
  | .hbm, ⟨80, _⟩ => ⟨S100000x16, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call0_cst : Ref sig .tc := ⟨.hbm, 52, rfl⟩
abbrev main_call0_v0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_8 : Ref sig .tc := ⟨.hbm, 58, rfl⟩
abbrev main_v39 : Ref sig .tc := ⟨.hbm, 59, rfl⟩
abbrev main_v40 : Ref sig .tc := ⟨.hbm, 60, rfl⟩
abbrev main_c_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_call1_cst : Ref sig .tc := ⟨.hbm, 78, rfl⟩
abbrev main_call1_v0 : Ref sig .tc := ⟨.hbm, 79, rfl⟩
abbrev main_v56 : Ref sig .tc := ⟨.hbm, 80, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []
  dot_S100000x32_S32x16_S100000x16_1_0_0_1_n_n_wf : DotDims.WF S100000x32 S32x16 S100000x16 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf

class Facts : Prop extends Facts₀ where

variable [Facts]
-- ==== Proof.KRun.lean ====
/-
  The kernel program's run with every buffer named.

  The program is four segments: the host operations up to the first kernel region, that region, the host operations
  between the regions, and the second region. The generated frame certificate chains them through the contents of
  every buffer at each boundary — W0 at the launch, W1 after the first host stretch, W2 after the first region, W3
  after the second host stretch, W4 after the second region — and concludes only that the arguments end unchanged.
  The same chain read at EVERY buffer that is not a staging buffer says: every weakly fair execution terminates, and
  each such buffer ends at W4's contents. The result buffer's value is read from that.
-/
import proofs.«129457_j47244640256453_2_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and every buffer that is not a staging
    buffer ends at the contents the chain of segments leaves in it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result buffer after the run: what the second region's write-backs leave in its output array. -/
theorem run_result : θ_run defs (onTc (τ := τ) (main (F := F))) ⟨m, fun _ => 0, ρ⟩ (fun r => ∀ c : Dev nD,
      r.2.mem ((c.tc : Thread nD τ).loc main_v44) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v44 (by decide))).trans (W4_arr m ρ c 4),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩)
    (run_all m ρ)

end Cert.KernelIdeal.GcnRun

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.LibColumnOps.lean ====
/-
  A column broadcast along the rows' entries, and reductions along a row kept as a column, read at an index,
  at exact arithmetic.

  A matrix [a, 1] broadcast to [a, b] reads, at (p, q), the column's entry p. The maximum over axis 1 of an [A, B]
  matrix at row r is the fold of max over the row's entries from the initial word's value. A sum over axis 1 that is
  kept as an [A, 1] column and broadcast back to C columns reads, at (p, q), the sum of row p — the shape a
  normalisation (a softmax's denominator, a row norm) prints as.
-/
import Idealize.ShloMosaic.Lib.ValueIdx
import Idealize.ShloMosaic.Lib.Pipeline.Value
import Idealize.ShloMosaic.PureOps.Ideal.Laws
import proofs.«129457_j47244640256453_2_alg».proof.Proof.LibKeepdims

noncomputable section

namespace LibColumnOps

open Idealize.ShloMosaic Idealize.ShloMosaic.ValueIdx

/-- An [a, 1] column broadcast to [a, b] reads, at (p, q), the column at p. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over axis 1 of an [A, B] matrix, at row r: the fold of max over the row, from the initial word's value. -/
theorem max_axis1_apply {A B : ℕ} {φ : FTy} (src : FVec Ideal ⟨2, ![A, B]⟩ φ) (acc : BitVec φ.bits)
    (h : Shape.Reduces ⟨2, ![A, B]⟩ [1] ⟨1, ![A]⟩) (hφ : FKind.Formats φ) (hacc : acc = FKind.maximumf.neutral φ hφ) (r : Fin A) :
    multiReduction .maximumf [1] ⟨1, ![A]⟩ src acc h hφ hacc (ix1 r)
      = (Finset.univ : Finset (Fin B)).fold max (Ideal.ofBits φ acc) (fun k => src (ix2 r k)) := by
  refine (Ideal.multiReduction_maximumf_single src acc h hφ hacc (ix1 r)).trans ?_
  refine congrArg (fun g => Finset.fold max (Ideal.ofBits φ acc) g (Finset.univ : Finset (Fin B))) (funext fun k => congrArg src ?_)
  funext d
  match d with
  | ⟨0, _⟩ => exact Fin.ext rfl
  | ⟨1, _⟩ => exact Fin.ext rfl

/-- The sum over the columns, kept as a unit column and broadcast to C columns, at (p, q): the sum of row p. -/
theorem rowsum_bcast_apply {A B C : ℕ} (y : FVec Ideal ⟨2, ![A, B]⟩ .f32)
    (hred : Shape.Reduces ⟨2, ![A, B]⟩ [1] ⟨1, ![A]⟩) (hcast : (⟨1, ![A]⟩ : Shape).ShapeCasts ⟨2, ![A, 1]⟩)
    (hb : (⟨2, ![A, 1]⟩ : Shape).Broadcasts ⟨2, ![A, C]⟩) (hφ : FKind.Formats .f32)
    (hacc : (0x00000000#32 : BitVec 32) = FKind.add.neutral .f32 hφ) (p : Fin A) (q : Fin C) :
    broadcastTo ⟨2, ![A, C]⟩ (shapeCast ⟨2, ![A, 1]⟩ (multiReduction .add [1] ⟨1, ![A]⟩ y 0x00000000#32 hred hφ hacc) hcast) hb (ix2 p q)
      = ∑ l, y (ix2 p l) := by
  rw [broadcastTo_col_apply, LibKeepdims.shapeCast_col_apply, LibKeepdims.sum_axis1_apply]

end LibColumnOps

end
-- ==== Proof.Body.lean ====
/-
  The two kernel bodies' stored values, read at one entry.

  Both bodies compute, for a block of 5000 rows, relu((x ⊙ d) W + b): every row p of the block x is scaled by the
  row's entry of the column d, multiplied into the weight matrix W (32 rows), the bias row b is added, and the
  result is clamped below at zero. The first body then scales row p once more by the row's entry of a second
  column s. A change of float format is the identity at exact arithmetic and a cast of a shape to itself is the
  identity, so at entry (p, q) the first body's value is
      max (Σ_k (x[p,k] · d[p,0]) · W[k,q] + b[0,q]) 0 · s[p,0]
  and the second body's the same without the last factor (and with 16 columns).
-/
import proofs.«129457_j47244640256453_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«129457_j47244640256453_2_alg».proof.Proof.LibMatmulIdx
import proofs.«129457_j47244640256453_2_alg».proof.Proof.LibColumnOps

noncomputable section

namespace Cert.KernelIdeal.GcnBody

open Cert.KernelIdeal Cert.KernelIdeal.Gen Idealize.ShloMosaic Idealize.ShloMosaic.ValueIdx

/-- The product of a 5000×32 block with the 32×32 weights into zero, at (p, q): Σ_k l[p,k] · r[k,q]. -/
theorem matmul32_apply (l : FVec Ideal S5000x32 .bf16) (r : FVec Ideal S32x32 .bf16) (p : Fin 5000) (q : Fin 32) :
    FloatOps.matmul (F := Ideal) dot_S5000x32_S32x32_S5000x32_1_0_0_1_n_n none l r (constant S5000x32 .f32 0x00000000#32) (ix2 p q)
      = ∑ k : Fin 32, l (ix2 p k) * r (ix2 k q) :=
  LibMatmulIdx.matmul2_apply dot_S5000x32_S32x32_S5000x32_1_0_0_1_n_n rfl rfl
    (fun j k => by
      unfold DotDims.lhsIdx
      rw [dif_neg (show ¬(0 : Fin S5000x32.rank) ∈ dot_S5000x32_S32x32_S5000x32_1_0_0_1_n_n.lhsBatch by decide),
        dif_pos (show (0 : Fin S5000x32.rank) ∈ dot_S5000x32_S32x32_S5000x32_1_0_0_1_n_n.lhsNonContracting by decide)]
      rfl)
    (fun j k => dot_S5000x32_S32x32_S5000x32_1_0_0_1_n_n.lhsIdx_val_of_single rfl j k)
    (fun j k => dot_S5000x32_S32x32_S5000x32_1_0_0_1_n_n.rhsIdx_val_of_single rfl j k)
    (fun j k => by
      unfold DotDims.rhsIdx
      rw [dif_neg (show ¬(1 : Fin S32x32.rank) ∈ dot_S5000x32_S32x32_S5000x32_1_0_0_1_n_n.rhsBatch by decide),
        dif_pos (show (1 : Fin S32x32.rank) ∈ dot_S5000x32_S32x32_S5000x32_1_0_0_1_n_n.rhsNonContracting by decide)]
      rfl)
    none l r (ix2 p q)

/-- The product of a 5000×32 block with the 32×16 weights into zero, at (p, q): Σ_k l[p,k] · r[k,q]. -/
theorem matmul16_apply (l : FVec Ideal S5000x32 .bf16) (r : FVec Ideal S32x16 .bf16) (p : Fin 5000) (q : Fin 16) :
    FloatOps.matmul (F := Ideal) dot_S5000x32_S32x16_S5000x16_1_0_0_1_n_n none l r (constant S5000x16 .f32 0x00000000#32) (ix2 p q)
      = ∑ k : Fin 32, l (ix2 p k) * r (ix2 k q) :=
  LibMatmulIdx.matmul2_apply dot_S5000x32_S32x16_S5000x16_1_0_0_1_n_n rfl rfl
    (fun j k => by
      unfold DotDims.lhsIdx
      rw [dif_neg (show ¬(0 : Fin S5000x32.rank) ∈ dot_S5000x32_S32x16_S5000x16_1_0_0_1_n_n.lhsBatch by decide),
        dif_pos (show (0 : Fin S5000x32.rank) ∈ dot_S5000x32_S32x16_S5000x16_1_0_0_1_n_n.lhsNonContracting by decide)]
      rfl)
    (fun j k => dot_S5000x32_S32x16_S5000x16_1_0_0_1_n_n.lhsIdx_val_of_single rfl j k)
    (fun j k => dot_S5000x32_S32x16_S5000x16_1_0_0_1_n_n.rhsIdx_val_of_single rfl j k)
    (fun j k => by
      unfold DotDims.rhsIdx
      rw [dif_neg (show ¬(1 : Fin S32x16.rank) ∈ dot_S5000x32_S32x16_S5000x16_1_0_0_1_n_n.rhsBatch by decide),
        dif_pos (show (1 : Fin S32x16.rank) ∈ dot_S5000x32_S32x16_S5000x16_1_0_0_1_n_n.rhsNonContracting by decide)]
      rfl)
    none l r (ix2 p q)

/-- The first body's stored value at (p, q). -/
theorem scaled_apply (x : Vec Ideal S5000x32 .f32) (d : Vec Ideal S5000x1 .f32) (w : Vec Ideal S32x32 .f32)
    (b : Vec Ideal S1x32 .f32) (s : Vec Ideal S5000x1 .f32) (p : Fin 5000) (q : Fin 32) :
    k0_pay1 (F := Ideal) x d w b s (ix2 p q)
      = max ((∑ k : Fin 32, (x (ix2 p k) * d (ix2 p (0 : Fin 1))) * w (ix2 k q)) + b (ix2 (0 : Fin 1) q))
          (Ideal.ofBits .f32 0x00000000#32) * s (ix2 p (0 : Fin 1)) := by
  unfold k0_pay1
  simp only [shapeCast_self]
  show max (FloatOps.matmul (F := Ideal) dot_S5000x32_S32x32_S5000x32_1_0_0_1_n_n none
        (truncf .bf16 (mulf x (broadcastTo S5000x32 d broadcasts_S5000x1_S5000x32)) bitsLt_bf16_f32)
        (truncf .bf16 w bitsLt_bf16_f32) (constant S5000x32 .f32 0x00000000#32) (ix2 p q)
      + broadcastTo S5000x32 b broadcasts_S1x32_S5000x32 (ix2 p q)) (Ideal.ofBits .f32 0x00000000#32)
    * broadcastTo S5000x32 s broadcasts_S5000x1_S5000x32 (ix2 p q) = _
  rw [matmul32_apply, LibColumnOps.broadcastTo_col_apply, broadcastTo_1b_ab_apply]
  refine congrArg (fun z => max (z + b (ix2 (0 : Fin 1) q)) (Ideal.ofBits .f32 0x00000000#32) * s (ix2 p (0 : Fin 1))) ?_
  refine Finset.sum_congr rfl fun k _ => ?_
  show (x (ix2 p k) * broadcastTo S5000x32 d broadcasts_S5000x1_S5000x32 (ix2 p k)) * w (ix2 k q) = _
  rw [LibColumnOps.broadcastTo_col_apply]

/-- The second body's stored value at (p, q). -/
theorem plain_apply (x : Vec Ideal S5000x32 .f32) (d : Vec Ideal S5000x1 .f32) (w : Vec Ideal S32x16 .f32)
    (b : Vec Ideal S1x16 .f32) (p : Fin 5000) (q : Fin 16) :
    k1_pay1 (F := Ideal) x d w b (ix2 p q)
      = max ((∑ k : Fin 32, (x (ix2 p k) * d (ix2 p (0 : Fin 1))) * w (ix2 k q)) + b (ix2 (0 : Fin 1) q))
          (Ideal.ofBits .f32 0x00000000#32) := by
  unfold k1_pay1
  simp only [shapeCast_self]
  show max (FloatOps.matmul (F := Ideal) dot_S5000x32_S32x16_S5000x16_1_0_0_1_n_n none
        (truncf .bf16 (mulf x (broadcastTo S5000x32 d broadcasts_S5000x1_S5000x32)) bitsLt_bf16_f32)
        (truncf .bf16 w bitsLt_bf16_f32) (constant S5000x16 .f32 0x00000000#32) (ix2 p q)
      + broadcastTo S5000x16 b broadcasts_S1x16_S5000x16 (ix2 p q)) (Ideal.ofBits .f32 0x00000000#32) = _
  rw [matmul16_apply, broadcastTo_1b_ab_apply]
  refine congrArg (fun z => max (z + b (ix2 (0 : Fin 1) q)) (Ideal.ofBits .f32 0x00000000#32)) ?_
  refine Finset.sum_congr rfl fun k _ => ?_
  show (x (ix2 p k) * broadcastTo S5000x32 d broadcasts_S5000x1_S5000x32 (ix2 p k)) * w (ix2 k q) = _
  rw [LibColumnOps.broadcastTo_col_apply]

end Cert.KernelIdeal.GcnBody

end
-- ==== Proof.Region0.lean ====
/-
  The first kernel region as one function of the arrays it finds.

  The grid has 20 points; point t works on rows 5000·t … 5000·t + 4999 of the node axis: it stages that row block
  of the aggregated features and of the two normalisation columns, and the whole weight matrix and bias row, and
  writes back the same row block of the result. The blocks written back tile the result array, and what point t
  writes at row p of its block is the body's value of row 5000·t + p of the inputs, so after the region the whole
  result array is, at (r, q),
      max (Σ_k (A[r,k] · D[r,0]) · W[k,q] + B[0,q]) 0 · S[r,0].
-/
import proofs.«129457_j47244640256453_2_alg».proof.Proof.Gen.KernelIdeal.Frame
import proofs.«129457_j47244640256453_2_alg».proof.Proof.Body
import Idealize.ShloMosaic.Lib.Pipeline.Value

set_option maxRecDepth 16384

noncomputable section

namespace Cert.KernelIdeal.GcnRegion

open Cert.KernelIdeal Cert.KernelIdeal.Gen Idealize.ShloMosaic Idealize.ShloMosaic.TcCoe Idealize.SL.Sem
open Idealize.ShloMosaic.ValueIdx
open Idealize.ShloMosaic.Pipeline (Dat)

/-- The hidden layer over the whole node axis, from the aggregated features A, the weights W, the bias row B and the
    two normalisation columns D (applied before the product) and S (applied after the clamp). -/
def hiddenOf (A : FVec Ideal S100000x32 .f32) (W : FVec Ideal S32x32 .f32) (B : FVec Ideal S1x32 .f32)
    (D S : FVec Ideal S100000x1 .f32) : FVec Ideal S100000x32 .f32 := fun i =>
  max ((∑ k : Fin 32, (A (ix2 (i 0) k) * D (ix2 (i 0) (0 : Fin 1))) * W (ix2 k (i 1))) + B (ix2 (0 : Fin 1) (i 1)))
    (Ideal.ofBits .f32 0x00000000#32) * S (ix2 (i 0) (0 : Fin 1))

/-- The body's value at entry (p, q) of a block is the hidden layer at entry (r, q) of the array, when row p of the
    block's inputs is row r of the arrays and the weights and bias are the arrays'. -/
theorem hidden_of_block (A : FVec Ideal S100000x32 .f32) (W : FVec Ideal S32x32 .f32) (B : FVec Ideal S1x32 .f32)
    (D S : FVec Ideal S100000x1 .f32) (x : Vec Ideal S5000x32 .f32) (d : Vec Ideal S5000x1 .f32) (w : Vec Ideal S32x32 .f32)
    (b : Vec Ideal S1x32 .f32) (s : Vec Ideal S5000x1 .f32) (j : S5000x32.Idx) (i : S100000x32.Idx)
    (p : Fin 5000) (q : Fin 32) (r : Fin 100000) (hj : j = ix2 p q) (hi : i = ix2 r q)
    (hx : ∀ k : Fin 32, x (ix2 p k) = A (ix2 r k))
    (hd : d (ix2 p (0 : Fin 1)) = D (ix2 r (0 : Fin 1)))
    (hs : s (ix2 p (0 : Fin 1)) = S (ix2 r (0 : Fin 1)))
    (hw : w = W) (hb : b = B) :
    k0_pay1 (F := Ideal) x d w b s j = hiddenOf A W B D S i := by
  subst hj hi
  rw [GcnBody.scaled_apply, hd, hs, hw, hb]
  show _ = max ((∑ k : Fin 32, (A (ix2 r k) * D (ix2 r (0 : Fin 1))) * W (ix2 k q)) + B (ix2 (0 : Fin 1) q))
    (Ideal.ofBits .f32 0x00000000#32) * S (ix2 r (0 : Fin 1))
  refine congrArg (fun z => max (z + B (ix2 (0 : Fin 1) q)) (Ideal.ofBits .f32 0x00000000#32) * S (ix2 r (0 : Fin 1))) ?_
  exact Finset.sum_congr rfl fun k _ => by rw [hx k]

section Region0

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the row-blocked windows (aggregated features, the two columns, the
    result) at row block t, everything else at block 0. -/
theorem index0 : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- What point t writes back is block t of the hidden layer of the arrays the region finds. -/
theorem flushed5_eq (c : Dev nD) (t : Fin cfg0.N) :
    (dat0 V c).flushed 5 t = ((cfg0.win 5).blk t).view.read (Elt Ideal)
      (hiddenOf (V c main_v27) (V c main_arg3) (V c main_v28) (V c main_v29) (V c main_v30)) := by
  show (cfg0.win 5).cut (grid0.coords t) ((dat0 V c).after 5 t) = _
  rw [after0_5]
  unfold out0_5
  rw [View.canon_unit_zero hz]
  simp only [View.ld_unit_zero (S := S5000x32) hz, View.ld_unit_zero (S := S5000x1) hz, View.ld_unit_zero (S := S32x32) hz,
    View.ld_unit_zero (S := S1x32) hz]
  obtain ⟨e50, e51, e00, e01, e10, e11, e20, e21, e30, e31, e40, e41⟩ := index0 t
  funext j
  show k0_pay1 (F := Ideal) (iblk0 V c 0 t) (iblk0 V c 3 t) (iblk0 V c 1 t) (iblk0 V c 2 t) (iblk0 V c 4 t) j
    = hiddenOf (V c main_v27) (V c main_arg3) (V c main_v28) (V c main_v29) (V c main_v30) (((cfg0.win 5).blk t).view.emb j)
  have hj0 : (j 0).val < 5000 := (j 0).isLt
  have hj1 : (j 1).val < 32 := (j 1).isLt
  have htN : t.val < 20 := lt_of_lt_of_eq t.isLt N_0
  refine hidden_of_block (V c main_v27) (V c main_arg3) (V c main_v28) (V c main_v29) (V c main_v30)
    (iblk0 V c 0 t) (iblk0 V c 3 t) (iblk0 V c 1 t) (iblk0 V c 2 t) (iblk0 V c 4 t) j (((cfg0.win 5).blk t).view.emb j)
    ⟨(j 0).val, hj0⟩ ⟨(j 1).val, hj1⟩ ⟨t.val * 5000 + (j 0).val, by omega⟩ ?_ ?_ (fun k => ?_) ?_ ?_ ?_ ?_
  · exact funext fun a => Fin.ext (by match a with | ⟨0, _⟩ => rfl | ⟨1, _⟩ => rfl)
  · refine funext fun a => Fin.ext ?_
    match a with
    | ⟨0, _⟩ => show win0_5.index t (0 : Fin 2) * 5000 + 1 * (j 0).val = t.val * 5000 + (j 0).val; omega
    | ⟨1, _⟩ => show win0_5.index t (1 : Fin 2) * 32 + 1 * (j 1).val = (j 1).val; omega
  · show V c main_v27 (((cfg0.win 0).blk t).view.emb (ix2 (⟨(j 0).val, hj0⟩ : Fin 5000) k)) = V c main_v27 _
    refine congrArg (V c main_v27) (funext fun a => Fin.ext ?_)
    match a with
    | ⟨0, _⟩ => show win0_0.index t (0 : Fin 2) * 5000 + 1 * (j 0).val = t.val * 5000 + (j 0).val; omega
    | ⟨1, _⟩ => show win0_0.index t (1 : Fin 2) * 32 + 1 * k.val = k.val; omega
  · show V c main_v29 (((cfg0.win 3).blk t).view.emb (ix2 (⟨(j 0).val, hj0⟩ : Fin 5000) (0 : Fin 1))) = V c main_v29 _
    refine congrArg (V c main_v29) (funext fun a => Fin.ext ?_)
    match a with
    | ⟨0, _⟩ => show win0_3.index t (0 : Fin 2) * 5000 + 1 * (j 0).val = t.val * 5000 + (j 0).val; omega
    | ⟨1, _⟩ => show win0_3.index t (1 : Fin 2) * 1 + 1 * 0 = 0; omega
  · show V c main_v30 (((cfg0.win 4).blk t).view.emb (ix2 (⟨(j 0).val, hj0⟩ : Fin 5000) (0 : Fin 1))) = V c main_v30 _
    refine congrArg (V c main_v30) (funext fun a => Fin.ext ?_)
    match a with
    | ⟨0, _⟩ => show win0_4.index t (0 : Fin 2) * 5000 + 1 * (j 0).val = t.val * 5000 + (j 0).val; omega
    | ⟨1, _⟩ => show win0_4.index t (1 : Fin 2) * 1 + 1 * 0 = 0; omega
  · funext y
    show V c main_arg3 (((cfg0.win 1).blk t).view.emb y) = V c main_arg3 y
    refine congrArg (V c main_arg3) (funext fun a => Fin.ext ?_)
    match a with
    | ⟨0, _⟩ => show win0_1.index t (0 : Fin 2) * 32 + 1 * (y 0).val = (y 0).val; omega
    | ⟨1, _⟩ => show win0_1.index t (1 : Fin 2) * 32 + 1 * (y 1).val = (y 1).val; omega
  · funext y
    show V c main_v28 (((cfg0.win 2).blk t).view.emb y) = V c main_v28 y
    refine congrArg (V c main_v28) (funext fun a => Fin.ext ?_)
    match a with
    | ⟨0, _⟩ => show win0_2.index t (0 : Fin 2) * 1 + 1 * (y 0).val = (y 0).val; omega
    | ⟨1, _⟩ => show win0_2.index t (1 : Fin 2) * 32 + 1 * (y 1).val = (y 1).val; omega

/-- An index of the result array is in point t's block iff each coordinate is in the block's range on its axis. -/
theorem mem_blk5 (t : Fin cfg0.N) (i : S100000x32.Idx) :
    i ∈ ((cfg0.win 5).blk t).view.set ↔ ∀ a : Fin 2, win0_5.index t a * S5000x32.size a ≤ (i a).val ∧ (i a).val < win0_5.index t a * S5000x32.size a + S5000x32.size a := by
  show i ∈ ((View.whole main_v31).slice (win0_5.rect t)).set ↔ _
  rw [View.set_slice_whole, Rect.mem_set_unit]
  exact Iff.rfl

/-- Every entry of the result array is in the block of the point that owns its row: row r belongs to point r / 5000. -/
theorem cover5 (i : S100000x32.Idx) : ∃ t : Fin cfg0.N, (cfg0.win 5).flush t = true ∧ i ∈ ((cfg0.win 5).blk t).view.set := by
  have hi0 : (i 0).val < 100000 := (i 0).isLt
  have hi1 : (i 1).val < 32 := (i 1).isLt
  have hN : grid0.N = 20 := N_0
  have ht : (i 0).val / 5000 < grid0.N := by rw [hN]; omega
  obtain ⟨e50, e51, -⟩ := index0 ⟨(i 0).val / 5000, ht⟩
  refine ⟨⟨(i 0).val / 5000, ht⟩, flush0_5 _, ?_⟩
  rw [mem_blk5]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, ht⟩ (1 : Fin 2) * 32 ≤ (i 1).val ∧ (i 1).val < win0_5.index ⟨(i 0).val / 5000, ht⟩ (1 : Fin 2) * 32 + 32
    rw [e51]; omega

/-- After the region the result array is the hidden layer of the arrays the region found. -/
theorem final5 (c : Dev nD) : (dat0 V c).arrAt 5 cfg0.N
    = hiddenOf (V c main_v27) (V c main_arg3) (V c main_v28) (V c main_v29) (V c main_v30) :=
  (dat0 V c).arrAt_eq_of_cover 5 _ (fun t _ => flushed5_eq V c t) cover5

end Region0

end Cert.KernelIdeal.GcnRegion

end
-- ==== Proof.Region1.lean ====
/-
  The second kernel region as one function of the arrays it finds.

  As in the first region the grid has 20 points and point t works on rows 5000·t … 5000·t + 4999: it stages that
  row block of the aggregated hidden features and of the normalisation column, and the whole 32×16 weight matrix and
  bias row, and writes back the same row block of the result. The blocks tile the result array, so after the region
  it is, at (r, q),
      max (Σ_k (A[r,k] · D[r,0]) · W[k,q] + B[0,q]) 0.
-/
import proofs.«129457_j47244640256453_2_alg».proof.Proof.Gen.KernelIdeal.Frame
import proofs.«129457_j47244640256453_2_alg».proof.Proof.Body
import Idealize.ShloMosaic.Lib.Pipeline.Value

set_option maxRecDepth 16384

noncomputable section

namespace Cert.KernelIdeal.GcnRegion

open Cert.KernelIdeal Cert.KernelIdeal.Gen Idealize.ShloMosaic Idealize.ShloMosaic.TcCoe Idealize.SL.Sem
open Idealize.ShloMosaic.ValueIdx
open Idealize.ShloMosaic.Pipeline (Dat)

/-- The output layer over the whole node axis, from the aggregated hidden features A, the weights W, the bias row B
    and the normalisation column D. -/
def outputOf (A : FVec Ideal S100000x32 .f32) (W : FVec Ideal S32x16 .f32) (B : FVec Ideal S1x16 .f32)
    (D : FVec Ideal S100000x1 .f32) : FVec Ideal S100000x16 .f32 := fun i =>
  max ((∑ k : Fin 32, (A (ix2 (i 0) k) * D (ix2 (i 0) (0 : Fin 1))) * W (ix2 k (i 1))) + B (ix2 (0 : Fin 1) (i 1)))
    (Ideal.ofBits .f32 0x00000000#32)

/-- The body's value at entry (p, q) of a block is the output layer at entry (r, q) of the array, when row p of the
    block's inputs is row r of the arrays and the weights and bias are the arrays'. -/
theorem output_of_block (A : FVec Ideal S100000x32 .f32) (W : FVec Ideal S32x16 .f32) (B : FVec Ideal S1x16 .f32)
    (D : FVec Ideal S100000x1 .f32) (x : Vec Ideal S5000x32 .f32) (d : Vec Ideal S5000x1 .f32) (w : Vec Ideal S32x16 .f32)
    (b : Vec Ideal S1x16 .f32) (j : S5000x16.Idx) (i : S100000x16.Idx)
    (p : Fin 5000) (q : Fin 16) (r : Fin 100000) (hj : j = ix2 p q) (hi : i = ix2 r q)
    (hx : ∀ k : Fin 32, x (ix2 p k) = A (ix2 r k))
    (hd : d (ix2 p (0 : Fin 1)) = D (ix2 r (0 : Fin 1)))
    (hw : w = W) (hb : b = B) :
    k1_pay1 (F := Ideal) x d w b j = outputOf A W B D i := by
  subst hj hi
  rw [GcnBody.plain_apply, hd, hw, hb]
  show _ = max ((∑ k : Fin 32, (A (ix2 r k) * D (ix2 r (0 : Fin 1))) * W (ix2 k q)) + B (ix2 (0 : Fin 1) q))
    (Ideal.ofBits .f32 0x00000000#32)
  refine congrArg (fun z => max (z + B (ix2 (0 : Fin 1) q)) (Ideal.ofBits .f32 0x00000000#32)) ?_
  exact Finset.sum_congr rfl fun k _ => by rw [hx k]

section Region1

variable (V : (c : Dev nD) → (b : Ref sig .tc) → Buf (Elt Ideal) ((c : Thread nD τ).loc b))

theorem hz1 : (![0, 0] : Fin 2 → Nat) = fun _ => 0 := funext fun a => by fin_cases a <;> rfl

/-- Where each window's block sits at point t: the row-blocked windows (aggregated features, the column, the result)
    at row block t, the weights and the bias row at block 0. -/
theorem index1 : ∀ t : Fin cfg1.N,
    win1_4.index t (0 : Fin 2) = t.val ∧ win1_4.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the output layer of the arrays the region finds. -/
theorem flushed4_eq (c : Dev nD) (t : Fin cfg1.N) :
    (dat1 V c).flushed 4 t = ((cfg1.win 4).blk t).view.read (Elt Ideal)
      (outputOf (V c main_v41) (V c main_arg5) (V c main_v42) (V c main_v43)) := by
  show (cfg1.win 4).cut (grid1.coords t) ((dat1 V c).after 4 t) = _
  rw [after1_4]
  unfold out1_4
  rw [View.canon_unit_zero hz1]
  simp only [View.ld_unit_zero (S := S5000x32) hz1, View.ld_unit_zero (S := S5000x1) hz1, View.ld_unit_zero (S := S32x16) hz1,
    View.ld_unit_zero (S := S1x16) hz1]
  obtain ⟨e40, e41, e00, e01, e10, e11, e20, e21, e30, e31⟩ := index1 t
  funext j
  show k1_pay1 (F := Ideal) (iblk1 V c 0 t) (iblk1 V c 3 t) (iblk1 V c 1 t) (iblk1 V c 2 t) j
    = outputOf (V c main_v41) (V c main_arg5) (V c main_v42) (V c main_v43) (((cfg1.win 4).blk t).view.emb j)
  have hj0 : (j 0).val < 5000 := (j 0).isLt
  have hj1 : (j 1).val < 16 := (j 1).isLt
  have htN : t.val < 20 := lt_of_lt_of_eq t.isLt N_1
  refine output_of_block (V c main_v41) (V c main_arg5) (V c main_v42) (V c main_v43)
    (iblk1 V c 0 t) (iblk1 V c 3 t) (iblk1 V c 1 t) (iblk1 V c 2 t) j (((cfg1.win 4).blk t).view.emb j)
    ⟨(j 0).val, hj0⟩ ⟨(j 1).val, hj1⟩ ⟨t.val * 5000 + (j 0).val, by omega⟩ ?_ ?_ (fun k => ?_) ?_ ?_ ?_
  · exact funext fun a => Fin.ext (by match a with | ⟨0, _⟩ => rfl | ⟨1, _⟩ => rfl)
  · refine funext fun a => Fin.ext ?_
    match a with
    | ⟨0, _⟩ => show win1_4.index t (0 : Fin 2) * 5000 + 1 * (j 0).val = t.val * 5000 + (j 0).val; omega
    | ⟨1, _⟩ => show win1_4.index t (1 : Fin 2) * 16 + 1 * (j 1).val = (j 1).val; omega
  · show V c main_v41 (((cfg1.win 0).blk t).view.emb (ix2 (⟨(j 0).val, hj0⟩ : Fin 5000) k)) = V c main_v41 _
    refine congrArg (V c main_v41) (funext fun a => Fin.ext ?_)
    match a with
    | ⟨0, _⟩ => show win1_0.index t (0 : Fin 2) * 5000 + 1 * (j 0).val = t.val * 5000 + (j 0).val; omega
    | ⟨1, _⟩ => show win1_0.index t (1 : Fin 2) * 32 + 1 * k.val = k.val; omega
  · show V c main_v43 (((cfg1.win 3).blk t).view.emb (ix2 (⟨(j 0).val, hj0⟩ : Fin 5000) (0 : Fin 1))) = V c main_v43 _
    refine congrArg (V c main_v43) (funext fun a => Fin.ext ?_)
    match a with
    | ⟨0, _⟩ => show win1_3.index t (0 : Fin 2) * 5000 + 1 * (j 0).val = t.val * 5000 + (j 0).val; omega
    | ⟨1, _⟩ => show win1_3.index t (1 : Fin 2) * 1 + 1 * 0 = 0; omega
  · funext y
    show V c main_arg5 (((cfg1.win 1).blk t).view.emb y) = V c main_arg5 y
    refine congrArg (V c main_arg5) (funext fun a => Fin.ext ?_)
    match a with
    | ⟨0, _⟩ => show win1_1.index t (0 : Fin 2) * 32 + 1 * (y 0).val = (y 0).val; omega
    | ⟨1, _⟩ => show win1_1.index t (1 : Fin 2) * 16 + 1 * (y 1).val = (y 1).val; omega
  · funext y
    show V c main_v42 (((cfg1.win 2).blk t).view.emb y) = V c main_v42 y
    refine congrArg (V c main_v42) (funext fun a => Fin.ext ?_)
    match a with
    | ⟨0, _⟩ => show win1_2.index t (0 : Fin 2) * 1 + 1 * (y 0).val = (y 0).val; omega
    | ⟨1, _⟩ => show win1_2.index t (1 : Fin 2) * 16 + 1 * (y 1).val = (y 1).val; omega

/-- An index of the result array is in point t's block iff each coordinate is in the block's range on its axis. -/
theorem mem_blk4 (t : Fin cfg1.N) (i : S100000x16.Idx) :
    i ∈ ((cfg1.win 4).blk t).view.set ↔ ∀ a : Fin 2, win1_4.index t a * S5000x16.size a ≤ (i a).val ∧ (i a).val < win1_4.index t a * S5000x16.size a + S5000x16.size a := by
  show i ∈ ((View.whole main_v44).slice (win1_4.rect t)).set ↔ _
  rw [View.set_slice_whole, Rect.mem_set_unit]
  exact Iff.rfl

/-- Every entry of the result array is in the block of the point that owns its row: row r belongs to point r / 5000. -/
theorem cover4 (i : S100000x16.Idx) : ∃ t : Fin cfg1.N, (cfg1.win 4).flush t = true ∧ i ∈ ((cfg1.win 4).blk t).view.set := by
  have hi0 : (i 0).val < 100000 := (i 0).isLt
  have hi1 : (i 1).val < 16 := (i 1).isLt
  have hN : grid1.N = 20 := N_1
  have ht : (i 0).val / 5000 < grid1.N := by rw [hN]; omega
  obtain ⟨e40, e41, -⟩ := index1 ⟨(i 0).val / 5000, ht⟩
  refine ⟨⟨(i 0).val / 5000, ht⟩, flush1_4 _, ?_⟩
  rw [mem_blk4]
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win1_4.index ⟨(i 0).val / 5000, ht⟩ (1 : Fin 2) * 16 ≤ (i 1).val ∧ (i 1).val < win1_4.index ⟨(i 0).val / 5000, ht⟩ (1 : Fin 2) * 16 + 16
    rw [e41]; omega

/-- After the region the result array is the output layer of the arrays the region found. -/
theorem final4 (c : Dev nD) : (dat1 V c).arrAt 4 cfg1.N
    = outputOf (V c main_v41) (V c main_arg5) (V c main_v42) (V c main_v43) :=
  (dat1 V c).arrAt_eq_of_cover 4 _ (fun t _ => flushed4_eq V c t) cover4

end Region1

end Cert.KernelIdeal.GcnRegion

end
-- ==== Proof.RefLayers.lean ====
/-
  The reference's two layers, read as the same whole-array functions the kernel regions compute.

  The reference scales the aggregated features by the in-degree column (a vector of length 100000 broadcast along
  the rows), multiplies by the weights, adds the bias (a vector broadcast along the columns), clamps at zero and, in
  the first layer, scales by the out-degree column. Entry by entry this is the hidden / output layer of the kernel
  regions, whose column and row operands are the same vectors cast to a [100000, 1] column and a [1, C] row: a cast
  keeps the row-major position, so the column at (r, 0) is the vector at r and the row at (0, q) the vector at q.
  Between the layers the reference gathers rows at the edge sources and adds them at the edge destinations; that
  aggregation is carried as one function of the features and the two index arrays.
-/
import proofs.«129457_j47244640256453_2_alg».proof.Proof.Gen.ReferenceIdeal.Read
import proofs.«129457_j47244640256453_2_alg».proof.Proof.Region0
import proofs.«129457_j47244640256453_2_alg».proof.Proof.Region1
import proofs.«129457_j47244640256453_2_alg».proof.Proof.LibKeepdims
import Idealize.ShloMosaic.Lib.ValueLayout

noncomputable section

namespace Cert.GcnBridge

open Cert.ReferenceIdeal Cert.ReferenceIdeal.Gen Cert.ReferenceIdeal.Read
open Idealize.ShloMosaic Idealize.ShloMosaic.ValueIdx
open Cert.KernelIdeal.GcnRegion (hiddenOf outputOf)

/-- A bias vector of length 32 as the one-row matrix the first region stages. -/
abbrev row32 (b : FVec Ideal S32 .f32) : FVec Ideal Cert.KernelIdeal.S1x32 .f32 :=
  shapeCast Cert.KernelIdeal.S1x32 b Cert.KernelIdeal.Gen.shapeCasts_S32_S1x32
/-- A bias vector of length 16 as the one-row matrix the second region stages. -/
abbrev row16 (b : FVec Ideal S16 .f32) : FVec Ideal Cert.KernelIdeal.S1x16 .f32 :=
  shapeCast Cert.KernelIdeal.S1x16 b Cert.KernelIdeal.Gen.shapeCasts_S16_S1x16
/-- A per-node vector as the one-column matrix the regions stage. -/
abbrev col (v : FVec Ideal S100000 .f32) : FVec Ideal Cert.KernelIdeal.S100000x1 .f32 :=
  shapeCast Cert.KernelIdeal.S100000x1 v Cert.KernelIdeal.Gen.shapeCasts_S100000_S100000x1

/-- The column at (r, 0) is the vector at r. -/
theorem col_apply (v : FVec Ideal S100000 .f32) (r : Fin 100000) : col v (ix2 r (0 : Fin 1)) = v (ix1 r) :=
  LibKeepdims.shapeCast_col_apply v _ r 0
/-- The row at (0, q) is the vector at q. -/
theorem row32_apply (b : FVec Ideal S32 .f32) (q : Fin 32) : row32 b (ix2 (0 : Fin 1) q) = b (ix1 q) :=
  shapeCast_a_1a_apply b _ 0 q
theorem row16_apply (b : FVec Ideal S16 .f32) (q : Fin 16) : row16 b (ix2 (0 : Fin 1) q) = b (ix1 q) :=
  shapeCast_a_1a_apply b _ 0 q

/-- The aggregation between the layers: the rows of X gathered at the (wrapped) edge sources x1 and added into the
    zero array at the edge destinations x2. -/
def aggOf (X : FVec Ideal S100000x32 .f32) (x1 x2 : IVec S1600000 32) : FVec Ideal S100000x32 .f32 :=
  Host.scatterAdd scatter_S100000x32_S1600000x1_S1600000x32_1_0_0_1 (val_main_v46 (F := Ideal)) (val_main_v47 (F := Ideal) x2)
    (Host.gather gather_S100000x32_S1600000x1_S1600000x32_1_0_n_n_0_1_132 X (val_main_v44 (F := Ideal) x1))

/-- The reference's second aggregation is that function of its hidden layer. -/
theorem ref_agg (x0 : FVec Ideal S100000x32 .f32) (x1 x2 : IVec S1600000 32) (x3 : FVec Ideal S32x32 .f32) (x4 : FVec Ideal S32 .f32) :
    val_main_v48 (F := Ideal) x0 x1 x2 x3 x4 = aggOf (val_main_v38 (F := Ideal) x0 x1 x2 x3 x4) x1 x2 := rfl

/-- The reference's hidden layer, scaled for the second gather, is the first region's function. -/
theorem ref_hidden (x0 : FVec Ideal S100000x32 .f32) (x1 x2 : IVec S1600000 32) (x3 : FVec Ideal S32x32 .f32) (x4 : FVec Ideal S32 .f32) :
    val_main_v38 (F := Ideal) x0 x1 x2 x3 x4
      = hiddenOf (val_main_v27 (F := Ideal) x0 x1 x2) x3 (row32 x4) (col (val_main_v14 (F := Ideal) x2)) (col (val_main_v10 (F := Ideal) x1)) := by
  funext i
  obtain ⟨r, q, rfl⟩ : ∃ (r : Fin 100000) (q : Fin 32), i = ix2 r q := ⟨i 0, i 1, eq_ix2 i⟩
  have e1 : ∀ k : Fin 32, lidx_main_v31 (ix2 r q) k = ix2 r k := fun k => funext fun a => Fin.ext (by
    match a with | ⟨0, _⟩ => rfl | ⟨1, _⟩ => rfl)
  have e2 : ∀ k : Fin 32, ridx_main_v31 (ix2 r q) k = ix2 k q := fun k => funext fun a => Fin.ext (by
    match a with | ⟨0, _⟩ => rfl | ⟨1, _⟩ => rfl)
  have e3 : idx_main_v32 (idx_main_v33 (ix2 r q)) = ix1 q := funext fun a => Fin.ext (by match a with | ⟨0, _⟩ => rfl)
  have e4 : idx_main_v36 (idx_main_v37 (ix2 r q)) = ix1 r := funext fun a => Fin.ext (by match a with | ⟨0, _⟩ => rfl)
  have e5 : ∀ k : Fin 32, idx_main_v28 (idx_main_v29 (ix2 r k)) = ix1 r := fun k => funext fun a => Fin.ext (by
    match a with | ⟨0, _⟩ => rfl)
  rw [val_main_v38_apply, val_main_v35_apply, val_main_v34_apply, val_main_v31_apply, val_main_v33_apply, val_main_v32_apply,
    val_main_call0_v0_apply, val_main_call0_cst_apply, val_main_v37_apply, val_main_v36_apply, e3, e4]
  show max ((∑ k : Fin 32, val_main_v30 (F := Ideal) x0 x1 x2 (lidx_main_v31 (ix2 r q) k) * x3 (ridx_main_v31 (ix2 r q) k)) + x4 (ix1 q))
      (Ideal.ofBits .f32 0x00000000#32) * val_main_v10 (F := Ideal) x1 (ix1 r)
    = max ((∑ k : Fin 32, (val_main_v27 (F := Ideal) x0 x1 x2 (ix2 r k) * col (val_main_v14 (F := Ideal) x2) (ix2 r (0 : Fin 1))) * x3 (ix2 k q))
        + row32 x4 (ix2 (0 : Fin 1) q)) (Ideal.ofBits .f32 0x00000000#32) * col (val_main_v10 (F := Ideal) x1) (ix2 r (0 : Fin 1))
  rw [col_apply, col_apply, row32_apply]
  refine congrArg (fun z => max (z + x4 (ix1 q)) (Ideal.ofBits .f32 0x00000000#32) * val_main_v10 (F := Ideal) x1 (ix1 r)) ?_
  refine Finset.sum_congr rfl fun k _ => ?_
  rw [e1, e2, val_main_v30_apply, val_main_v29_apply, val_main_v28_apply, e5]
  rfl

/-- The reference's result is the second region's function of its second aggregation. -/
theorem ref_output (x0 : FVec Ideal S100000x32 .f32) (x1 x2 : IVec S1600000 32) (x3 : FVec Ideal S32x32 .f32) (x4 : FVec Ideal S32 .f32)
    (x5 : FVec Ideal S32x16 .f32) (x6 : FVec Ideal S16 .f32) :
    val_main_v56 (F := Ideal) x0 x1 x2 x3 x4 x5 x6
      = outputOf (val_main_v48 (F := Ideal) x0 x1 x2 x3 x4) x5 (row16 x6) (col (val_main_v14 (F := Ideal) x2)) := by
  funext i
  obtain ⟨r, q, rfl⟩ : ∃ (r : Fin 100000) (q : Fin 16), i = ix2 r q := ⟨i 0, i 1, eq_ix2 i⟩
  have e1 : ∀ k : Fin 32, lidx_main_v52 (ix2 r q) k = ix2 r k := fun k => funext fun a => Fin.ext (by
    match a with | ⟨0, _⟩ => rfl | ⟨1, _⟩ => rfl)
  have e2 : ∀ k : Fin 32, ridx_main_v52 (ix2 r q) k = ix2 k q := fun k => funext fun a => Fin.ext (by
    match a with | ⟨0, _⟩ => rfl | ⟨1, _⟩ => rfl)
  have e3 : idx_main_v53 (idx_main_v54 (ix2 r q)) = ix1 q := funext fun a => Fin.ext (by match a with | ⟨0, _⟩ => rfl)
  have e5 : ∀ k : Fin 32, idx_main_v49 (idx_main_v50 (ix2 r k)) = ix1 r := fun k => funext fun a => Fin.ext (by
    match a with | ⟨0, _⟩ => rfl)
  rw [val_main_v56_apply, val_main_v55_apply, val_main_v52_apply, val_main_v54_apply, val_main_v53_apply,
    val_main_call1_v0_apply, val_main_call1_cst_apply, e3]
  show max ((∑ k : Fin 32, val_main_v51 (F := Ideal) x0 x1 x2 x3 x4 (lidx_main_v52 (ix2 r q) k) * x5 (ridx_main_v52 (ix2 r q) k)) + x6 (ix1 q))
      (Ideal.ofBits .f32 0x00000000#32)
    = max ((∑ k : Fin 32, (val_main_v48 (F := Ideal) x0 x1 x2 x3 x4 (ix2 r k) * col (val_main_v14 (F := Ideal) x2) (ix2 r (0 : Fin 1))) * x5 (ix2 k q))
        + row16 x6 (ix2 (0 : Fin 1) q)) (Ideal.ofBits .f32 0x00000000#32)
  rw [col_apply, row16_apply]
  refine congrArg (fun z => max (z + x6 (ix1 q)) (Ideal.ofBits .f32 0x00000000#32)) ?_
  refine Finset.sum_congr rfl fun k _ => ?_
  rw [e1, e2, val_main_v51_apply, val_main_v50_apply, val_main_v49_apply, e5]
  rfl

end Cert.GcnBridge

end
-- ==== Proof.KHost.lean ====
/-
  The kernel program's host operations, read at the buffers the regions stage.

  Before the first region the host computes the two degree normalisations, scales the input features by the
  out-degree normalisation, gathers the scaled rows at the edge sources and adds them at the edge destinations, and
  casts the bias and the two normalisation vectors to a row and two columns. These are the reference's own first
  operations, so each staged buffer is the reference's corresponding stage of the same arguments. Between the regions
  the host aggregates the first region's result in the same way and casts the second bias and the in-degree
  normalisation. No host operation and no region writes an argument or the normalisation vectors, so they read back
  through the regions unchanged.
-/
import proofs.«129457_j47244640256453_2_alg».proof.Proof.Gen.KernelIdeal.Frame
import proofs.«129457_j47244640256453_2_alg».proof.Proof.RefLayers
import Idealize.ShloMosaic.Lib.StableHlo.Run

set_option maxRecDepth 16384

noncomputable section

namespace Cert.KernelIdeal.GcnHost

open Cert.KernelIdeal Cert.KernelIdeal.Gen Idealize.ShloMosaic Idealize.ShloMosaic.TcCoe Idealize.SL.Sem
open Idealize.ShloMosaic.StableHlo
open Cert.GcnBridge (aggOf row32 row16 col)
open Cert.KernelIdeal.GcnRegion (hiddenOf outputOf)

variable (m : (ℓ : Loc nD τ sig) → Buf (Elt Ideal) ℓ) (ρ : Dev nD → PrngReg)

/-- The seven arguments as launched. -/
abbrev x0 (c : Dev nD) := m ((c.tc : Thread nD τ).loc main_arg0)
abbrev x1 (c : Dev nD) := m ((c.tc : Thread nD τ).loc main_arg1)
abbrev x2 (c : Dev nD) := m ((c.tc : Thread nD τ).loc main_arg2)
abbrev x3 (c : Dev nD) := m ((c.tc : Thread nD τ).loc main_arg3)
abbrev x4 (c : Dev nD) := m ((c.tc : Thread nD τ).loc main_arg4)
abbrev x5 (c : Dev nD) := m ((c.tc : Thread nD τ).loc main_arg5)
abbrev x6 (c : Dev nD) := m ((c.tc : Thread nD τ).loc main_arg6)

/-! ## What the first region finds -/

/-- The aggregated, out-degree-scaled input features. -/
theorem V1_v27 (c : Dev nD) : V1 m ρ c main_v27
    = Cert.ReferenceIdeal.Read.val_main_v27 (F := Ideal) (x0 m c) (x1 m c) (x2 m c) := by
  show StableHlo.after hostOps0 (W0 m ρ c) (Proc.devRef .tc main_v27) = _
  after_results_simp <;> rfl

/-- The first weights, untouched. -/
theorem V1_arg3 (c : Dev nD) : V1 m ρ c main_arg3 = x3 m c := by
  show StableHlo.after hostOps0 (W0 m ρ c) (Proc.devRef .tc main_arg3) = _
  after_results_simp <;> rfl

/-- The first bias as a row. -/
theorem V1_v28 (c : Dev nD) : V1 m ρ c main_v28 = row32 (x4 m c) := by
  show StableHlo.after hostOps0 (W0 m ρ c) (Proc.devRef .tc main_v28) = _
  after_results_simp <;> rfl

/-- The in-degree normalisation as a column. -/
theorem V1_v29 (c : Dev nD) : V1 m ρ c main_v29 = col (Cert.ReferenceIdeal.Read.val_main_v14 (F := Ideal) (x2 m c)) := by
  show StableHlo.after hostOps0 (W0 m ρ c) (Proc.devRef .tc main_v29) = _
  after_results_simp <;> rfl

/-- The out-degree normalisation as a column. -/
theorem V1_v30 (c : Dev nD) : V1 m ρ c main_v30 = col (Cert.ReferenceIdeal.Read.val_main_v10 (F := Ideal) (x1 m c)) := by
  show StableHlo.after hostOps0 (W0 m ρ c) (Proc.devRef .tc main_v30) = _
  after_results_simp <;> rfl

/-! ## What the first region leaves -/

/-- Its result array: the hidden layer of what it found. -/
theorem W2_v31 (c : Dev nD) : W2 m ρ c (Proc.devRef .tc main_v31)
    = hiddenOf (Cert.ReferenceIdeal.Read.val_main_v27 (F := Ideal) (x0 m c) (x1 m c) (x2 m c)) (x3 m c) (row32 (x4 m c))
        (col (Cert.ReferenceIdeal.Read.val_main_v14 (F := Ideal) (x2 m c))) (col (Cert.ReferenceIdeal.Read.val_main_v10 (F := Ideal) (x1 m c))) := by
  refine (W2_arr m ρ c 5).trans ((GcnRegion.final5 (V1 m ρ) c).trans ?_)
  rw [V1_v27, V1_arg3, V1_v28, V1_v29, V1_v30]

/-- The edge sources, the edge destinations, the second weights and bias, and the in-degree normalisation are as
    they were before the region: it stages none of them. -/
theorem W2_arg1 (c : Dev nD) : W2 m ρ c (Proc.devRef .tc main_arg1) = x1 m c := by
  refine (W2_of_ne m ρ c main_arg1 (by decide)).trans ?_
  show StableHlo.after hostOps0 (W0 m ρ c) (Proc.devRef .tc main_arg1) = _
  after_results_simp <;> rfl
theorem W2_arg2 (c : Dev nD) : W2 m ρ c (Proc.devRef .tc main_arg2) = x2 m c := by
  refine (W2_of_ne m ρ c main_arg2 (by decide)).trans ?_
  show StableHlo.after hostOps0 (W0 m ρ c) (Proc.devRef .tc main_arg2) = _
  after_results_simp <;> rfl
theorem W2_arg5 (c : Dev nD) : W2 m ρ c (Proc.devRef .tc main_arg5) = x5 m c := by
  refine (W2_of_ne m ρ c main_arg5 (by decide)).trans ?_
  show StableHlo.after hostOps0 (W0 m ρ c) (Proc.devRef .tc main_arg5) = _
  after_results_simp <;> rfl
theorem W2_arg6 (c : Dev nD) : W2 m ρ c (Proc.devRef .tc main_arg6) = x6 m c := by
  refine (W2_of_ne m ρ c main_arg6 (by decide)).trans ?_
  show StableHlo.after hostOps0 (W0 m ρ c) (Proc.devRef .tc main_arg6) = _
  after_results_simp <;> rfl
theorem W2_v14 (c : Dev nD) : W2 m ρ c (Proc.devRef .tc main_v14) = Cert.ReferenceIdeal.Read.val_main_v14 (F := Ideal) (x2 m c) := by
  refine (W2_of_ne m ρ c main_v14 (by decide)).trans ?_
  show StableHlo.after hostOps0 (W0 m ρ c) (Proc.devRef .tc main_v14) = _
  after_results_simp <;> rfl

/-! ## What the second region finds -/

/-- The aggregated hidden features. -/
theorem V3_v41 (c : Dev nD) : V3 m ρ c main_v41
    = aggOf (W2 m ρ c (Proc.devRef .tc main_v31)) (W2 m ρ c (Proc.devRef .tc main_arg1)) (W2 m ρ c (Proc.devRef .tc main_arg2)) := by
  show StableHlo.after hostOps1 (W2 m ρ c) (Proc.devRef .tc main_v41) = _
  after_results_simp <;> rfl

/-- The second weights, untouched. -/
theorem V3_arg5 (c : Dev nD) : V3 m ρ c main_arg5 = W2 m ρ c (Proc.devRef .tc main_arg5) := by
  show StableHlo.after hostOps1 (W2 m ρ c) (Proc.devRef .tc main_arg5) = _
  after_results_simp <;> rfl

/-- The second bias as a row. -/
theorem V3_v42 (c : Dev nD) : V3 m ρ c main_v42 = row16 (W2 m ρ c (Proc.devRef .tc main_arg6)) := by
  show StableHlo.after hostOps1 (W2 m ρ c) (Proc.devRef .tc main_v42) = _
  after_results_simp <;> rfl

/-- The in-degree normalisation as a column. -/
theorem V3_v43 (c : Dev nD) : V3 m ρ c main_v43 = col (W2 m ρ c (Proc.devRef .tc main_v14)) := by
  show StableHlo.after hostOps1 (W2 m ρ c) (Proc.devRef .tc main_v43) = _
  after_results_simp <;> rfl

/-! ## The result -/

/-- What the second region's write-backs leave in the result array is the reference's result term of the same
    arguments: the output layer of the aggregation of the hidden layer, on both sides. -/
theorem result_eq (c : Dev nD) : (dat1 (V3 m ρ) c).arrAt 4 cfg1.N
    = Cert.ReferenceIdeal.Read.val_main_v56 (F := Ideal) (x0 m c) (x1 m c) (x2 m c) (x3 m c) (x4 m c) (x5 m c) (x6 m c) := by
  rw [GcnRegion.final4 (V3 m ρ) c, V3_v41, V3_arg5, V3_v42, V3_v43, W2_v31, W2_arg1, W2_arg2, W2_arg5, W2_arg6, W2_v14,
    Cert.GcnBridge.ref_output, Cert.GcnBridge.ref_agg, Cert.GcnBridge.ref_hidden]

end Cert.KernelIdeal.GcnHost

end
-- ==== Proof.lean ====
/-
  A two-layer graph convolution on 100000 nodes and 1600000 edges: the kernel program against its plain reference.

  Both programs compute, from node features X, edge sources and destinations, and two weight/bias pairs,
      H = relu((A (X ⊙ s) ⊙ d) W1 + b1) ⊙ s,      Y = relu((A H ⊙ d) W2 + b2),
  where s and d are the out- and in-degree normalisations (degree clamped below at 1, to the power −1/2), ⊙ scales
  rows, and A gathers rows at the edge sources and adds them at the edge destinations. The reference does all of it
  with whole-array host operations. The kernel program does the degree counts, the scalings before the gathers and
  the aggregations on the host exactly as the reference does, and each dense epilogue (scale by d, product with the
  weights through a bf16 change of format, bias, clamp, and in the first layer the scale by s) in a kernel region
  over 20 blocks of 5000 rows.

  At exact arithmetic a change of float format is the identity and a matrix product into a zero accumulator is the
  host's product, and the two programs associate every product and sum in the same order, so no algebraic law is
  needed and the precondition (finite inputs) is never opened: each region's result array is the reference's layer
  entry by entry (the blocks tile the node axis), and the host operations around the regions are the reference's own.
-/
import proofs.«129457_j47244640256453_2_alg».proof.Defs
import proofs.«129457_j47244640256453_2_alg».proof.Proof.Gen.Kernel
import proofs.«129457_j47244640256453_2_alg».proof.Proof.Gen.Kernel.Frame
import proofs.«129457_j47244640256453_2_alg».proof.Proof.Gen.KernelIdeal
import proofs.«129457_j47244640256453_2_alg».proof.Proof.Gen.KernelIdeal.Frame
import proofs.«129457_j47244640256453_2_alg».proof.Proof.Gen.ReferenceIdeal
import proofs.«129457_j47244640256453_2_alg».proof.Proof.Gen.Pre_finite_inputs
import proofs.«129457_j47244640256453_2_alg».proof.Proof.Gen.ReferenceIdeal.Run
import proofs.«129457_j47244640256453_2_alg».proof.Proof.Gen.ReferenceIdeal.Read
import proofs.«129457_j47244640256453_2_alg».proof.Proof.KRun
import proofs.«129457_j47244640256453_2_alg».proof.Proof.KHost
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program at exact arithmetic. -/
theorem frame_kernelIdeal : Cert.frame_KernelIdeal := fun m ρ _ => Cert.KernelIdeal.Gen.frame m ρ

/-- The reference is a line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs run, and the kernel program's result array — what the
    second region's write-backs leave — is the reference's result term of the same arguments. -/
theorem algebraic : Cert.algebraic_KernelIdeal_ReferenceIdeal := by
  intro m ρ m' ρ' _ hagree
  refine ⟨fun c => (Cert.KernelIdeal.Gen.dat1 (Cert.KernelIdeal.Gen.V3 m ρ) c).arrAt 4 Cert.KernelIdeal.cfg1.N,
    Cert.KernelIdeal.GcnRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, (hagree c).1, (hagree c).2.1, (hagree c).2.2.1, (hagree c).2.2.2.1,
    (hagree c).2.2.2.2.1, (hagree c).2.2.2.2.2.1, (hagree c).2.2.2.2.2.2]
  exact (Cert.KernelIdeal.GcnHost.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
